-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S8x4096x16 : Shape := ⟨3, ![8, 4096, 16]⟩
abbrev S2 : Shape := ⟨1, ![2]⟩
abbrev S64x64x2 : Shape := ⟨3, ![64, 64, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S2 : S_.BroadcastsInDim S2 (![] : Fin 0 → Fin S2.rank)
  reducesTo_S2_S_d0 : S2.ReducesTo [0] S_
  bcast_S_S64x64x2 : S_.BroadcastsInDim S64x64x2 (![] : Fin 0 → Fin S64x64x2.rank)
  reducesTo_S64x64x2_S_d0_1_2 : S64x64x2.ReducesTo [0, 1, 2] S_

variable [Facts]

def fn_part1 {F : FTy → Type} [FloatOps F] (main_v13 : IVec S_ 1) (main_v16 : IVec S64x64x2 1) : IVec S_ 1 :=
  let main_c_5 : IVec S_ 1 := constantI S_ 1 1#1
  let main_v17 : IVec S_ 1 := (fun x v => Host.reduce IntOp.andi x v reducesTo_S64x64x2_S_d0_1_2 h_S_) main_v16 main_c_5
  let main_v18 : IVec S_ 1 := andi main_v13 main_v17
  main_v18

def fn {F : FTy → Type} [FloatOps F] (main_arg0 : FVec F S8x4096x2 .f32) (main_arg1 : FVec F S8x4096x16 .f32) (main_arg2 : FVec F S2 .f32) (main_arg3 : FVec F S64x64x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x16 .f32 := Host.absf main_arg1
  let main_cst_0 : FVec F S_ .f32 := constant S_ .f32 0x7F800000#32
  let main_v5 : FVec F S8x4096x16 .f32 := broadcastInDim S8x4096x16 ![] bcast_S_S8x4096x16 main_cst_0
  let main_v6 : IVec S8x4096x16 1 := cmpf .olt main_v4 main_v5
  let main_c_1 : IVec S_ 1 := constantI S_ 1 1#1
  let main_v7 : IVec S_ 1 := (fun x v => Host.reduce IntOp.andi x v reducesTo_S8x4096x16_S_d0_1_2 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S64x64x2 .f32 := Host.absf main_arg3
  let main_cst_4 : FVec F S_ .f32 := constant S_ .f32 0x7F800000#32
  let main_v15 : FVec F S64x64x2 .f32 := broadcastInDim S64x64x2 ![] bcast_S_S64x64x2 main_cst_4
  let main_v16 : IVec S64x64x2 1 := cmpf .olt main_v14 main_v15
  fn_part1 (F := F) main_v13 main_v16
-- ==== Kernel.lean ====
abbrev S8x4096x2 : Shape := ⟨3, ![8, 4096, 2]⟩
abbrev S8x4096x16 : Shape := ⟨3, ![8, 4096, 16]⟩
abbrev S2 : Shape := ⟨1, ![2]⟩
abbrev S64x64x2 : Shape := ⟨3, ![64, 64, 2]⟩
abbrev S_ : Shape := ⟨0, ![]⟩
abbrev S4096x2 : Shape := ⟨2, ![4096, 2]⟩
abbrev S1x2 : Shape := ⟨2, ![1, 2]⟩
abbrev S1x1x2 : Shape := ⟨3, ![1, 1, 2]⟩
abbrev S8x2x4096 : Shape := ⟨3, ![8, 2, 4096]⟩
abbrev S256x2 : Shape := ⟨2, ![256, 2]⟩
abbrev S1x2x4096 : Shape := ⟨3, ![1, 2, 4096]⟩
abbrev S1x4096x16 : Shape := ⟨3, ![1, 4096, 16]⟩
abbrev S1x256x16 : Shape := ⟨3, ![1, 256, 16]⟩
abbrev S256 : Shape := ⟨1, ![256]⟩
abbrev S256x1 : Shape := ⟨2, ![256, 1]⟩
abbrev S2x4096 : Shape := ⟨2, ![2, 4096]⟩
abbrev S4096 : Shape := ⟨1, ![4096]⟩
abbrev S1x4096 : Shape := ⟨2, ![1, 4096]⟩
abbrev S256x4096 : Shape := ⟨2, ![256, 4096]⟩
abbrev S4096x16 : Shape := ⟨2, ![4096, 16]⟩
abbrev S256x16 : Shape := ⟨2, ![256, 16]⟩
abbrev S8x64x64x16 : Shape := ⟨4, ![8, 64, 64, 16]⟩
abbrev S1x64x64x2 : Shape := ⟨4, ![1, 64, 64, 2]⟩
abbrev S8x64x64x2 : Shape := ⟨4, ![8, 64, 64, 2]⟩

abbrev nBuf : Space → Nat
  | .hbm => 33
  | .vmem => 8
  | .smem => 0
  | _ => 0

abbrev bufTy : (tb : Table) → Fin (tcTables nBuf tb) → BufTy
  | .hbm, ⟨0, _⟩ => ⟨S8x4096x2, .f32⟩
  | .hbm, ⟨1, _⟩ => ⟨S8x4096x16, .f32⟩
  | .hbm, ⟨2, _⟩ => ⟨S2, .f32⟩
  | .hbm, ⟨3, _⟩ => ⟨S64x64x2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S4096x2, .f32⟩
  | .hbm, ⟨22, _⟩ => ⟨S1x2, .f32⟩
  | .hbm, ⟨23, _⟩ => ⟨S4096x2, .f32⟩
  | .hbm, ⟨24, _⟩ => ⟨S4096x2, .f32⟩
  | .hbm, ⟨25, _⟩ => ⟨S1x1x2, .f32⟩
  | .hbm, ⟨26, _⟩ => ⟨S8x4096x2, .f32⟩
  | .hbm, ⟨27, _⟩ => ⟨S8x4096x2, .f32⟩
  | .hbm, ⟨28, _⟩ => ⟨S8x2x4096, .f32⟩
  | .hbm, ⟨29, _⟩ => ⟨S8x4096x16, .f32⟩
  | .hbm, ⟨30, _⟩ => ⟨S8x64x64x16, .f32⟩
  | .hbm, ⟨31, _⟩ => ⟨S1x64x64x2, .f32⟩
  | .hbm, ⟨32, _⟩ => ⟨S8x64x64x2, .f32⟩
  | .local _ .vmem, ⟨0, _⟩ => ⟨S256x2, .f32⟩
  | .local _ .vmem, ⟨1, _⟩ => ⟨S256x2, .f32⟩
  | .local _ .vmem, ⟨2, _⟩ => ⟨S1x2x4096, .f32⟩
  | .local _ .vmem, ⟨3, _⟩ => ⟨S1x2x4096, .f32⟩
  | .local _ .vmem, ⟨4, _⟩ => ⟨S1x4096x16, .f32⟩
  | .local _ .vmem, ⟨5, _⟩ => ⟨S1x4096x16, .f32⟩
  | .local _ .vmem, ⟨6, _⟩ => ⟨S1x256x16, .f32⟩
  | .local _ .vmem, ⟨7, _⟩ => ⟨S1x256x16, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S2 : S_.BroadcastsInDim S2 (![] : Fin 0 → Fin S2.rank)
  shapeCasts_S64x64x2_S4096x2 : S64x64x2.ShapeCasts S4096x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S2_S1x1x2_2 : S2.BroadcastsInDim S1x1x2 (![2] : Fin 1 → Fin S1x1x2.rank)
  bcast_S1x1x2_S8x4096x2_0_1_2 : S1x1x2.BroadcastsInDim S8x4096x2 (![0, 1, 2] : Fin 3 → Fin S8x4096x2.rank)
  transposes_S8x4096x2_S8x2x4096_0_2_1 : S8x4096x2.Transposes [0, 2, 1] S8x2x4096
  inb_S256x2_S256x2_0_0 : ∀ a, (![0, 0] : Fin 2 → Nat) a + S256x2.size a ≤ S256x2.size a
  h_S256x2 : 0 < S256x2.numel
  shapeCasts_S256x2_S256x2 : S256x2.ShapeCasts S256x2
  reduces_S256x2_S256 : S256x2.Reduces [1] S256
  shapeCasts_S256_S256x1 : S256.ShapeCasts S256x1
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  reduces_S2x4096_S4096 : S2x4096.Reduces [0] S4096
  shapeCasts_S4096_S1x4096 : S4096.ShapeCasts S1x4096
  broadcasts_S256x1_S256x4096 : S256x1.Broadcasts S256x4096
  broadcasts_S1x4096_S256x4096 : S1x4096.Broadcasts S256x4096
  bitsLt_bf16_f32 : FTy.bits .bf16 < FTy.bits .f32
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S1x256x16 : S256x16.ShapeCasts S1x256x16
  shapeCasts_S8x4096x16_S8x64x64x16 : S8x4096x16.ShapeCasts S8x64x64x16
  bcast_S64x64x2_S1x64x64x2_1_2_3 : S64x64x2.BroadcastsInDim S1x64x64x2 (![1, 2, 3] : Fin 3 → Fin S1x64x64x2.rank)
  bcast_S1x64x64x2_S8x64x64x2_0_1_2_3 : S1x64x64x2.BroadcastsInDim S8x64x64x2 (![0, 1, 2, 3] : Fin 4 → Fin S8x64x64x2.rank)
  dot_S256x2_S2x4096_S256x4096_1_0_0_1_n_n_wf : DotDims.WF S256x2 S2x4096 S256x4096 [1] [0] [0] [1] [] []
  dot_S256x4096_S4096x16_S256x16_1_0_0_1_n_n_wf : DotDims.WF S256x4096 S4096x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S4096x2.size a
  hwx0_0 : ∀ i : grid0.Coords, EltTy.bits .f32 = 32 ∨ (Rect.block (s := S4096x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096.size a ≤ S8x2x4096.size a
  hwx0_1 : ∀ i : grid0.Coords, EltTy.bits .f32 = 32 ∨ (Rect.block (s := S8x2x4096) S1x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x16.size a ≤ S8x4096x16.size a
  hwx0_2 : ∀ i : grid0.Coords, EltTy.bits .f32 = 32 ∨ (Rect.block (s := S8x4096x16) S1x4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x16.size a ≤ S8x4096x16.size a
  hwx0_3 : ∀ i : grid0.Coords, EltTy.bits .f32 = 32 ∨ (Rect.block (s := S8x4096x16) S1x256x16.size (cc0_transform_3 i) (hinb0_3 i)).WholeWords (EltTy.packing .f32)

variable [Facts₀]

def dot_S256x2_S2x4096_S256x4096_1_0_0_1_n_n : DotDims S256x2 S2x4096 S256x4096 where
  lhsContracting := [1]
  rhsContracting := [0]
  lhsNonContracting := [0]
  rhsNonContracting := [1]
  lhsBatch := []
  rhsBatch := []
  wf := dot_S256x2_S2x4096_S256x4096_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf

abbrev win0_0 : Pipeline.Window sig grid0 :=
  Pipeline.Window.ofSpec (Memref.whole main_v6) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2 : Shape := ⟨3, ![8, 4096, 2]⟩
abbrev S8x4096x16 : Shape := ⟨3, ![8, 4096, 16]⟩
abbrev S2 : Shape := ⟨1, ![2]⟩
abbrev S64x64x2 : Shape := ⟨3, ![64, 64, 2]⟩
abbrev S_ : Shape := ⟨0, ![]⟩
abbrev S4096x2 : Shape := ⟨2, ![4096, 2]⟩
abbrev S1x4096x1x2 : Shape := ⟨4, ![1, 4096, 1, 2]⟩
abbrev S8x1x4096x2 : Shape := ⟨4, ![8, 1, 4096, 2]⟩
abbrev S8x4096x4096x2 : Shape := ⟨4, ![8, 4096, 4096, 2]⟩
abbrev S1x1x1x2 : Shape := ⟨4, ![1, 1, 1, 2]⟩
abbrev S8x4096x4096 : Shape := ⟨3, ![8, 4096, 4096]⟩
abbrev S8x64x64x16 : Shape := ⟨4, ![8, 64, 64, 16]⟩
abbrev S1x64x64x2 : Shape := ⟨4, ![1, 64, 64, 2]⟩
abbrev S8x64x64x2 : Shape := ⟨4, ![8, 64, 64, 2]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x16, .f32⟩
  | .hbm, ⟨2, _⟩ => ⟨S2, .f32⟩
  | .hbm, ⟨3, _⟩ => ⟨S64x64x2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S4096x2, .f32⟩
  | .hbm, ⟨22, _⟩ => ⟨S1x4096x1x2, .f32⟩
  | .hbm, ⟨23, _⟩ => ⟨S8x1x4096x2, .f32⟩
  | .hbm, ⟨24, _⟩ => ⟨S8x4096x4096x2, .f32⟩
  | .hbm, ⟨25, _⟩ => ⟨S8x4096x4096x2, .f32⟩
  | .hbm, ⟨26, _⟩ => ⟨S8x4096x4096x2, .f32⟩
  | .hbm, ⟨27, _⟩ => ⟨S1x1x1x2, .f32⟩
  | .hbm, ⟨28, _⟩ => ⟨S8x4096x4096x2, .f32⟩
  | .hbm, ⟨29, _⟩ => ⟨S8x4096x4096x2, .f32⟩
  | .hbm, ⟨30, _⟩ => ⟨S8x4096x4096x2, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x16, .f32⟩
  | .hbm, ⟨38, _⟩ => ⟨S8x64x64x16, .f32⟩
  | .hbm, ⟨39, _⟩ => ⟨S1x64x64x2, .f32⟩
  | .hbm, ⟨40, _⟩ => ⟨S8x64x64x2, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]

class Facts₀ : Prop where
  bcast_S_S2 : S_.BroadcastsInDim S2 (![] : Fin 0 → Fin S2.rank)
  shapeCasts_S64x64x2_S4096x2 : S64x64x2.ShapeCasts S4096x2
  bcast_S4096x2_S1x4096x1x2_1_3 : S4096x2.BroadcastsInDim S1x4096x1x2 (![1, 3] : Fin 2 → Fin S1x4096x1x2.rank)
  bcast_S8x4096x2_S8x1x4096x2_0_2_3 : S8x4096x2.BroadcastsInDim S8x1x4096x2 (![0, 2, 3] : Fin 3 → Fin S8x1x4096x2.rank)
  bcast_S1x4096x1x2_S8x4096x4096x2_0_1_2_3 : S1x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  bcast_S2_S1x1x1x2_3 : S2.BroadcastsInDim S1x1x1x2 (![3] : Fin 1 → Fin S1x1x1x2.rank)
  bcast_S1x1x1x2_S8x4096x4096x2_0_1_2_3 : S1x1x1x2.BroadcastsInDim S8x4096x4096x2 (![0, 1, 2, 3] : Fin 4 → Fin S8x4096x4096x2.rank)
  reducesTo_S8x4096x4096x2_S8x4096x4096_d3 : S8x4096x4096x2.ReducesTo [3] S8x4096x4096
  h_S_ : 0 < S_.numel
  bcast_S_S8x4096x4096 : S_.BroadcastsInDim S8x4096x4096 (![] : Fin 0 → Fin S8x4096x4096.rank)
  shapeCasts_S8x4096x16_S8x64x64x16 : S8x4096x16.ShapeCasts S8x64x64x16
  bcast_S64x64x2_S1x64x64x2_1_2_3 : S64x64x2.BroadcastsInDim S1x64x64x2 (![1, 2, 3] : Fin 3 → Fin S1x64x64x2.rank)
  bcast_S1x64x64x2_S8x64x64x2_0_1_2_3 : S1x64x64x2.BroadcastsInDim S8x64x64x2 (![0, 1, 2, 3] : Fin 4 → Fin S8x64x64x2.rank)
  dot_S8x4096x4096_S8x4096x16_S8x4096x16_2_1_1_2_0_0_wf : DotDims.WF S8x4096x4096 S8x4096x16 S8x4096x16 [2] [1] [1] [2] [0] [0]

variable [Facts₀]

def dot_S8x4096x4096_S8x4096x16_S8x4096x16_2_1_1_2_0_0 : DotDims S8x4096x4096 S8x4096x16 S8x4096x16 where
  lhsContracting := [2]
  rhsContracting := [1]
  lhsNonContracting := [1]
  rhsNonContracting := [2]
  lhsBatch := [0]
  rhsBatch := [0]
  wf := dot_S8x4096x4096_S8x4096x16_S8x4096x16_2_1_1_2_0_0_wf

class Facts : Prop extends Facts₀ where

variable [Facts]
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.Tile.lean ====
/-
  One grid point's output tile, entry by entry, on the extended reals.

  The body is handed a tile `gs` of 256 scaled grid points (rows, two coordinates each), the scaled input points of one batch
  element transposed, `xs` (two rows of 4096 coordinates), and that element's features `z` (4096 rows of 16). It stores, at
  row r and feature d,

      sum over n of  exp( sum_k gs(r,k)*xs(k,n)  +  (-1/2) * sum_k gs(r,k)^2  +  (-1/2) * sum_k xs(k,n)^2 ) * z(n,d):

  the cross term is a plain product contracting the two coordinates, each squared norm a sum along the coordinate axis kept
  as a column (rows) or as a row (points) and broadcast over the tile, and the final product contracts the 4096 points.
  A change of float format is the identity here.
-/
import proofs.«151437_j21105469292680_2_alg».proof.Proof.Gen.KernelIdeal.Skeleton
import proofs.«151437_j21105469292680_2_alg».proof.Proof.LibColumn
import proofs.«151437_j21105469292680_2_alg».proof.Proof.LibRowMax
import proofs.«151437_j21105469292680_2_alg».proof.Proof.LibMinAxis
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- Half the negated squared norm of each row of a 256 × 2 tile, kept as a column and broadcast across 4096 columns. -/
theorem row_norm (c : Ideal .f32) (v : FVec Ideal S256x2 .f32) (r : Fin 256) (n : Fin 4096) :
    broadcastTo S256x4096 (mulf (broadcast S256x1 c)
        (shapeCast S256x1 (multiReduction .add [1] S256 (mulf v v) 0x00000000#32 reduces_S256x2_S256 (.inl rfl) rfl)
          shapeCasts_S256_S256x1)) broadcasts_S256x1_S256x4096 (ix2 r n)
      = c * ∑ k : Fin 2, v (ix2 r k) * v (ix2 r k) := by
  refine (Cert.LibColumn.broadcastTo_a1_ab_apply _ broadcasts_S256x1_S256x4096 r n).trans ?_
  refine congrArg (c * ·) ?_
  refine (Cert.LibColumn.shapeCast_a_a1_apply _ shapeCasts_S256_S256x1 r (0 : Fin 1)).trans ?_
  exact Cert.LibColumn.sum_last_apply (mulf v v) reduces_S256x2_S256 (.inl rfl) rfl r

/-- Half the negated squared norm of each column of a 2 × 4096 array, kept as a row and broadcast down 256 rows. -/
theorem col_norm (c : Ideal .f32) (v : FVec Ideal S2x4096 .f32) (r : Fin 256) (n : Fin 4096) :
    broadcastTo S256x4096 (mulf (broadcast S1x4096 c)
        (shapeCast S1x4096 (multiReduction .add [0] S4096 (mulf v v) 0x00000000#32 reduces_S2x4096_S4096 (.inl rfl) rfl)
          shapeCasts_S4096_S1x4096)) broadcasts_S1x4096_S256x4096 (ix2 r n)
      = c * ∑ k : Fin 2, v (ix2 k n) * v (ix2 k n) := by
  refine (broadcastTo_1b_ab_apply _ broadcasts_S1x4096_S256x4096 r n).trans ?_
  refine congrArg (c * ·) ?_
  refine (shapeCast_a_1a_apply _ shapeCasts_S4096_S1x4096 (0 : Fin 1) n).trans ?_
  exact Idealize.ShloMosaic.MinAxis.sum_first_apply (mulf v v) reduces_S2x4096_S4096 (.inl rfl) rfl n

/-- The cross term: a plain product contracting the two coordinates. -/
theorem cross (v : FVec Ideal S256x2 .f32) (w : FVec Ideal S2x4096 .f32) (r : Fin 256) (n : Fin 4096) :
    matmul dot_S256x2_S2x4096_S256x4096_1_0_0_1_n_n (some .fp32) v w (constant S256x4096 .f32 0x00000000#32) (ix2 r n)
      = ∑ k : Fin 2, v (ix2 r k) * w (ix2 k n) :=
  Cert.LibRowMax.matmul_plain_apply dot_S256x2_S2x4096_S256x4096_1_0_0_1_n_n_wf (some .fp32) v w r n

/-- The weighted sum of the features: a plain product contracting the 4096 points. -/
theorem weigh (w : FVec Ideal S256x4096 .bf16) (zb : FVec Ideal S4096x16 .bf16) (r : Fin 256) (d : Fin 16) :
    matmul dot_S256x4096_S4096x16_S256x16_1_0_0_1_n_n none w zb (constant S256x16 .f32 0x00000000#32) (ix2 r d)
      = ∑ n : Fin 4096, w (ix2 r n) * zb (ix2 n d) :=
  Cert.LibRowMax.matmul_plain_apply dot_S256x4096_S4096x16_S256x16_1_0_0_1_n_n_wf none w zb r d

/-- The stored tile at row `r`, feature `d`. -/
theorem tile_apply (gs : Vec Ideal S256x2 .f32) (xs : Vec Ideal S1x2x4096 .f32) (z : Vec Ideal S1x4096x16 .f32)
    (u : Fin 1) (r : Fin 256) (d : Fin 16) :
    k0_pay1 (F := Ideal) gs xs z (ix3 u r d)
      = ∑ n : Fin 4096, Ideal.exp ((∑ k : Fin 2, gs (ix2 r k) * xs (ix3 (0 : Fin 1) k n))
            + Ideal.ofBits .f32 0xBF000000#32 * (∑ k : Fin 2, gs (ix2 r k) * gs (ix2 r k))
            + Ideal.ofBits .f32 0xBF000000#32 * (∑ k : Fin 2, xs (ix3 (0 : Fin 1) k n) * xs (ix3 (0 : Fin 1) k n)))
          * z (ix3 (0 : Fin 1) n d) := by
  unfold k0_pay1
  dsimp only
  refine (shapeCast_ab_1ab_apply _ shapeCasts_S256x16_S1x256x16 u r d).trans ?_
  refine (weigh _ _ r d).trans ?_
  refine Finset.sum_congr rfl fun n _ => ?_
  have hg : shapeCast S256x2 gs shapeCasts_S256x2_S256x2 = gs := shapeCast_self gs shapeCasts_S256x2_S256x2
  have hx : ∀ k : Fin 2, shapeCast S2x4096 xs shapeCasts_S1x2x4096_S2x4096 (ix2 k n) = xs (ix3 (0 : Fin 1) k n) :=
    fun k => shapeCast_1ab_ab_apply xs shapeCasts_S1x2x4096_S2x4096 k n
  refine congrArg₂ (· * ·) (congrArg Ideal.exp ?_) (shapeCast_1ab_ab_apply z shapeCasts_S1x4096x16_S4096x16 n d)
  rw [hg]
  refine congrArg₂ (· + ·) (congrArg₂ (· + ·) ?_ ?_) ?_
  · refine (cross gs _ r n).trans (Finset.sum_congr rfl fun k _ => ?_)
    rw [hx k]
  · exact row_norm _ gs r n
  · refine (col_norm _ _ r n).trans (congrArg (_ * ·) (Finset.sum_congr rfl fun k _ => ?_))
    rw [hx k]

end Cert.KernelIdeal.Tile

end
-- ==== Proof.RbfLaw.lean ====
/-
  The exponent of a Gaussian weight between two points of the plane, written two ways, on the extended reals.

  For real coordinates g, x and lengthscales l (any extended reals), with a = g / l, b = x / l and d = (g - x) / l taken
  coordinate by coordinate,

      sum a*b  +  (-1/2) * sum a*a  +  (-1/2) * sum b*b   =   (-1/2) * (0 + sum d*d).

  Where every lengthscale is nonzero its reciprocal is a real number (the reciprocal of an infinity is zero), so a, b are
  reals, d = a - b, and the identity is the expansion of the square (a - b)^2. Where a lengthscale is zero every quotient by
  it is an infinity, each sum of squares is the top element, its product with -1/2 is the bottom element, and the bottom
  element absorbs every sum: both sides are the bottom element.
-/
import Idealize.ShloMosaic.PureOps.Ideal
import Idealize.ShloMosaic.PureOps.Ideal.Laws

noncomputable section

namespace Cert.RbfLaw

open Idealize.ShloMosaic

/-- The word `0xBF000000` denotes the real `-1/2`. -/
theorem neg_half : Ideal.ofBits .f32 0xBF000000#32 = ((-(1 / 2) : ℝ) : EReal) := by
  simp [Ideal.ofBits, Ideal.ieee, -EReal.coe_mul]; norm_num

/-- A square is never the bottom element. -/
theorem sq_ne_bot (y : EReal) : y * y ≠ ⊥ := by
  induction y using EReal.rec with
  | bot => simp
  | coe r => rw [← EReal.coe_mul]; exact EReal.coe_ne_bot _
  | top => simp

/-- A quotient by zero is an infinity, so its square is the top element. -/
theorem div_zero_sq (y : EReal) : Ideal.div y 0 * Ideal.div y 0 = ⊤ := by
  unfold Ideal.div
  rw [if_pos rfl]
  split <;> simp

/-- The reciprocal of an extended real is a real number. -/
theorem inv_real (l : EReal) : ∃ r : ℝ, l⁻¹ = (r : EReal) := by
  induction l using EReal.rec with
  | bot => exact ⟨0, by simp⟩
  | coe r => exact ⟨r⁻¹, (EReal.coe_inv r).symm⟩
  | top => exact ⟨0, by simp⟩

/-- Off zero, the quotients of two reals and of their difference by one extended real are reals `a`, `b` and `a - b`. -/
theorem scaled (g x : ℝ) (l : EReal) (hl : l ≠ 0) :
    ∃ a b : ℝ, Ideal.div g l = a ∧ Ideal.div x l = b ∧ Ideal.div ((g : EReal) - x) l = ((a - b : ℝ) : EReal) := by
  obtain ⟨r, hr⟩ := inv_real l
  refine ⟨g * r, x * r, ?_, ?_, ?_⟩
  · rw [Ideal.div, if_neg hl, hr, EReal.coe_mul]
  · rw [Ideal.div, if_neg hl, hr, EReal.coe_mul]
  · rw [Ideal.div, if_neg hl, hr, ← EReal.coe_sub, ← EReal.coe_mul]
    congr 1; ring

/-- With a negative real factor, a sum of two squares one of which is the top element gives the bottom element. -/
theorem neg_mul_top_add {c : ℝ} (hc : c < 0) (s : EReal) (hs : s ≠ ⊥) : (c : EReal) * (⊤ + s) = ⊥ := by
  rw [EReal.top_add_of_ne_bot hs, EReal.coe_mul_top_of_neg hc]

theorem neg_mul_add_top {c : ℝ} (hc : c < 0) (s : EReal) (hs : s ≠ ⊥) : (c : EReal) * (s + ⊤) = ⊥ := by
  rw [EReal.add_top_of_ne_bot hs, EReal.coe_mul_top_of_neg hc]

/-- The two spellings of the exponent agree, over two coordinates. -/
theorem exponent_eq (g x : Fin 2 → ℝ) (l : Fin 2 → EReal) :
    (∑ k : Fin 2, Ideal.div (g k) (l k) * Ideal.div (x k) (l k))
        + ((-(1 / 2) : ℝ) : EReal) * (∑ k : Fin 2, Ideal.div (g k) (l k) * Ideal.div (g k) (l k))
        + ((-(1 / 2) : ℝ) : EReal) * (∑ k : Fin 2, Ideal.div (x k) (l k) * Ideal.div (x k) (l k))
      = ((-(1 / 2) : ℝ) : EReal)
          * (0 + ∑ k : Fin 2, Ideal.div ((g k : EReal) - x k) (l k) * Ideal.div ((g k : EReal) - x k) (l k)) := by
  have hc : (-(1 / 2) : ℝ) < 0 := by norm_num
  simp only [Fin.sum_univ_two, zero_add]
  by_cases h0 : l 0 = 0
  · rw [h0]
    simp only [div_zero_sq]
    rw [neg_mul_top_add hc _ (sq_ne_bot _), neg_mul_top_add hc _ (sq_ne_bot _), neg_mul_top_add hc _ (sq_ne_bot _),
      EReal.add_bot]
  · by_cases h1 : l 1 = 0
    · rw [h1]
      simp only [div_zero_sq]
      rw [neg_mul_add_top hc _ (sq_ne_bot _), neg_mul_add_top hc _ (sq_ne_bot _), neg_mul_add_top hc _ (sq_ne_bot _),
        EReal.add_bot]
    · obtain ⟨a0, b0, ha0, hb0, hd0⟩ := scaled (g 0) (x 0) (l 0) h0
      obtain ⟨a1, b1, ha1, hb1, hd1⟩ := scaled (g 1) (x 1) (l 1) h1
      rw [ha0, hb0, hd0, ha1, hb1, hd1]
      simp only [← EReal.coe_mul, ← EReal.coe_add]
      congr 1; ring

end Cert.RbfLaw

end
-- ==== Proof.Spec.lean ====
/-
  The smoothed features on the grid, as one function of the arrays, in the two spellings the two programs compute.

  For batch element b, grid point p and feature d the result is the sum over the 4096 input points n of a Gaussian weight
  times the point's feature z(b,n,d). With gf the flattened grid, x the input points and l the two lengthscales:

  * `smoothed`: the weight is exp( (-1/2) * (0 + sum_k ((gf(p,k) - x(b,n,k)) / l(k))^2) ): differences first, then scaled;
  * `tiled`: over the scaled arrays gs(p,k) = gf(p,k)/l(k) and xs(b,k,n) = x(b,n,k)/l(k), the weight is
    exp( sum_k gs(p,k)*xs(b,k,n) + (-1/2) * sum_k gs(p,k)^2 + (-1/2) * sum_k xs(b,k,n)^2 ): the square expanded.

  When the grid and the points hold real numbers the two agree, whatever extended reals the lengthscales are.
-/
import proofs.«151437_j21105469292680_2_alg».proof.Proof.RbfLaw
import Idealize.ShloMosaic.Lib.ValueIdx
import Idealize.ShloMosaic.PureOps.Ideal.Laws

noncomputable section

namespace Cert.SetConv

open Idealize.ShloMosaic Idealize.ShloMosaic.ValueIdx

/-- The result from the scaled arrays, the square expanded. -/
def tiled (gs : (⟨2, ![4096, 2]⟩ : Shape).Idx → EReal) (xs : (⟨3, ![8, 2, 4096]⟩ : Shape).Idx → EReal)
    (z : (⟨3, ![8, 4096, 16]⟩ : Shape).Idx → EReal) (b : Fin 8) (p : Fin 4096) (d : Fin 16) : EReal :=
  ∑ n : Fin 4096, Ideal.exp ((∑ k : Fin 2, gs (ix2 p k) * xs (ix3 b k n))
      + Ideal.ofBits .f32 0xBF000000#32 * (∑ k : Fin 2, gs (ix2 p k) * gs (ix2 p k))
      + Ideal.ofBits .f32 0xBF000000#32 * (∑ k : Fin 2, xs (ix3 b k n) * xs (ix3 b k n))) * z (ix3 b n d)

/-- The result from the unscaled arrays: differences, scaled, squared, summed. -/
def smoothed (l : (⟨1, ![2]⟩ : Shape).Idx → EReal) (x : (⟨3, ![8, 4096, 2]⟩ : Shape).Idx → EReal)
    (z : (⟨3, ![8, 4096, 16]⟩ : Shape).Idx → EReal) (gf : (⟨2, ![4096, 2]⟩ : Shape).Idx → EReal)
    (b : Fin 8) (p : Fin 4096) (d : Fin 16) : EReal :=
  ∑ n : Fin 4096, Ideal.exp (Ideal.ofBits .f32 0xBF000000#32 * (Ideal.ofBits .f32 0x00000000#32
      + ∑ k : Fin 2, Ideal.div (gf (ix2 p k) - x (ix3 b n k)) (l (ix1 k)) * Ideal.div (gf (ix2 p k) - x (ix3 b n k)) (l (ix1 k))))
    * z (ix3 b n d)

/-- On real grid and point coordinates the two spellings agree. -/
theorem tiled_eq_smoothed (l : (⟨1, ![2]⟩ : Shape).Idx → EReal) (x : (⟨3, ![8, 4096, 2]⟩ : Shape).Idx → EReal)
    (z : (⟨3, ![8, 4096, 16]⟩ : Shape).Idx → EReal) (gf : (⟨2, ![4096, 2]⟩ : Shape).Idx → EReal)
    (gs : (⟨2, ![4096, 2]⟩ : Shape).Idx → EReal) (xs : (⟨3, ![8, 2, 4096]⟩ : Shape).Idx → EReal)
    (hx : ∀ i, ∃ r : ℝ, x i = r) (hg : ∀ i, ∃ r : ℝ, gf i = r)
    (hgs : ∀ (p : Fin 4096) (k : Fin 2), gs (ix2 p k) = Ideal.div (gf (ix2 p k)) (l (ix1 k)))
    (hxs : ∀ (b : Fin 8) (k : Fin 2) (n : Fin 4096), xs (ix3 b k n) = Ideal.div (x (ix3 b n k)) (l (ix1 k)))
    (b : Fin 8) (p : Fin 4096) (d : Fin 16) :
    tiled gs xs z b p d = smoothed l x z gf b p d := by
  unfold tiled smoothed
  refine Finset.sum_congr rfl fun n _ => ?_
  refine congrArg (fun e => Ideal.exp e * z (ix3 b n d)) ?_
  choose gr hgr using hg
  choose xr hxr using hx
  simp only [hgs, hxs]
  rw [Cert.RbfLaw.neg_half, Ideal.ofBits_zero_f32]
  have key := Cert.RbfLaw.exponent_eq (fun k => gr (ix2 p k)) (fun k => xr (ix3 b n k)) (fun k => l (ix1 k))
  simp only [← hgr, ← hxr] at key
  exact key

end Cert.SetConv

end
-- ==== Proof.Blocks.lean ====
/-
  From one grid point's tile to the whole output array.

  Grid point t = (b, q) reads rows 256 q .. 256 q + 255 of the scaled grid, batch element b of the scaled points and of the
  features, and writes rows 256 q .. 256 q + 255 of batch element b of the output. So what it writes back is that block of
  ONE function of the three arrays the region finds, `tiled`; the 8 × 16 blocks tile the output, hence the output array
  ends holding that function everywhere.
-/
import proofs.«151437_j21105469292680_2_alg».proof.Proof.Gen.KernelIdeal.Frame
import proofs.«151437_j21105469292680_2_alg».proof.Proof.Tile
import proofs.«151437_j21105469292680_2_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

theorem origin2 : (![0, 0] : Fin 2 → Nat) = fun _ => 0 := funext fun a => by fin_cases a <;> rfl
theorem origin3 : (![0, 0, 0] : Fin 3 → Nat) = fun _ => 0 := funext fun a => by fin_cases a <;> rfl

/-- The output array as one function of the three arrays the region finds. -/
def whole (c : Dev nD) : S8x4096x16.Idx → EReal := fun i =>
  Cert.SetConv.tiled (V m c main_v6) (V m c main_v10) (V m c main_arg1) (i 0) (i 1) (i 2)

/-- A tile whose inputs are rows `p ..` of `gsA` and batch element `b` of `xsA`, `zA` is `tiled` at `(b, p, d)`. -/
theorem tile_tiled (gsA : (⟨2, ![4096, 2]⟩ : Shape).Idx → EReal) (xsA : (⟨3, ![8, 2, 4096]⟩ : Shape).Idx → EReal)
    (zA : (⟨3, ![8, 4096, 16]⟩ : Shape).Idx → EReal)
    (x0 : Vec Ideal S256x2 .f32) (x1 : Vec Ideal S1x2x4096 .f32) (x2 : Vec Ideal S1x4096x16 .f32)
    (b : Fin 8) (p : Fin 4096) (u : Fin 1) (r : Fin 256) (d : Fin 16)
    (h0 : ∀ k : Fin 2, x0 (ix2 r k) = gsA (ix2 p k))
    (h1 : ∀ (k : Fin 2) (n : Fin 4096), x1 (ix3 (0 : Fin 1) k n) = xsA (ix3 b k n))
    (h2 : ∀ n : Fin 4096, x2 (ix3 (0 : Fin 1) n d) = zA (ix3 b n d)) :
    k0_pay1 (F := Ideal) x0 x1 x2 (ix3 u r d) = Cert.SetConv.tiled gsA xsA zA b p d := by
  refine (Cert.KernelIdeal.Tile.tile_apply x0 x1 x2 u r d).trans ?_
  unfold Cert.SetConv.tiled
  simp only [h0, h1, h2]

/-- The printed index maps over the grid: the scaled grid's block follows the output's row block, the points' and the
    features' blocks follow the output's batch element. -/
theorem idx_facts : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) < 16 ∧ win0_3.index t (2 : Fin 3) = 0 :=
  (by decide +kernel : ∀ t : Fin grid0.N, _)

/-- Every block of the output is some point's. -/
theorem idx_onto : ∀ (q0 : Fin 8) (q1 : Fin 16), ∃ t : Fin cfg0.N, win0_3.index t = ![q0.val, q1.val, 0] :=
  (by decide +kernel : ∀ (q0 : Fin 8) (q1 : Fin 16), ∃ t : Fin grid0.N, win0_3.index t = ![q0.val, q1.val, 0])

/-- What point `t` writes back is block `t` of `whole`. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero origin3]
  simp only [View.ld_unit_zero (S := S256x2) origin2, View.ld_unit_zero (S := S1x2x4096) origin3,
    View.ld_unit_zero (S := S1x4096x16) origin3]
  obtain ⟨e00, e01, e10, e11, e12, e20, e21, e22, h30, h31, h32⟩ := idx_facts t
  funext j
  obtain ⟨u, r, d, rfl⟩ : ∃ (u : Fin 1) (r : Fin 256) (d : Fin 16), j = ix3 u r d := ⟨j 0, j 1, j 2, eq_ix3 j⟩
  have hu : u.val = 0 := by omega
  have hr : r.val < 256 := r.isLt
  have hemb : ((cfg0.win 3).blk t).view.emb (ix3 u r d)
      = ix3 (⟨win0_3.index t (0 : Fin 3), h30⟩ : Fin 8) (⟨win0_3.index t (1 : Fin 3) * 256 + r.val, by omega⟩ : Fin 4096) d := by
    funext a; apply Fin.ext
    match a with
    | ⟨0, _⟩ => show win0_3.index t (0 : Fin 3) * 1 + 1 * u.val = win0_3.index t (0 : Fin 3); omega
    | ⟨1, _⟩ => show win0_3.index t (1 : Fin 3) * 256 + 1 * r.val = win0_3.index t (1 : Fin 3) * 256 + r.val; omega
    | ⟨2, _⟩ => show win0_3.index t (2 : Fin 3) * 16 + 1 * d.val = d.val; omega
  show k0_pay1 (F := Ideal) (iblk m c 0 t) (iblk m c 1 t) (iblk m c 2 t) (ix3 u r d)
    = whole m c (((cfg0.win 3).blk t).view.emb (ix3 u r d))
  rw [hemb]
  show _ = Cert.SetConv.tiled (V m c main_v6) (V m c main_v10) (V m c main_arg1) _ _ d
  refine tile_tiled _ _ _ (iblk m c 0 t) (iblk m c 1 t) (iblk m c 2 t) _ _ u r d ?_ ?_ ?_
  · intro k
    show V m c main_v6 (((cfg0.win 0).blk t).view.emb (ix2 r k)) = V m c main_v6 _
    refine congrArg _ (funext fun a => Fin.ext ?_)
    match a with
    | ⟨0, _⟩ => show win0_0.index t (0 : Fin 2) * 256 + 1 * r.val = win0_3.index t (1 : Fin 3) * 256 + r.val; omega
    | ⟨1, _⟩ => show win0_0.index t (1 : Fin 2) * 2 + 1 * k.val = k.val; omega
  · intro k n
    show V m c main_v10 (((cfg0.win 1).blk t).view.emb (ix3 (0 : Fin 1) k n)) = V m c main_v10 _
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 2 + 1 * k.val = k.val; omega
    | ⟨2, _⟩ => show win0_1.index t (2 : Fin 3) * 4096 + 1 * n.val = n.val; omega
  · intro n
    show V m c main_arg1 (((cfg0.win 2).blk t).view.emb (ix3 (0 : Fin 1) n d)) = V m c main_arg1 _
    refine congrArg _ (funext fun a => Fin.ext ?_)
    match a with
    | ⟨0, _⟩ => show win0_2.index t (0 : Fin 3) * 1 + 1 * 0 = win0_3.index t (0 : Fin 3); omega
    | ⟨1, _⟩ => show win0_2.index t (1 : Fin 3) * 4096 + 1 * n.val = n.val; omega
    | ⟨2, _⟩ => show win0_2.index t (2 : Fin 3) * 16 + 1 * d.val = d.val; omega

/-- An index of the output array is in point `t`'s block iff each coordinate is in the block's range on its axis. -/
theorem mem_blk (t : Fin cfg0.N) (i : S8x4096x16.Idx) :
    i ∈ ((cfg0.win 3).blk t).view.set ↔ ∀ a : Fin 3, win0_3.index t a * S1x256x16.size a ≤ (i a).val
      ∧ (i a).val < win0_3.index t a * S1x256x16.size a + S1x256x16.size a := by
  show i ∈ ((View.whole main_v11).slice (win0_3.rect t)).set ↔ _
  rw [View.set_slice_whole, Rect.mem_set_unit]
  exact Iff.rfl

/-- The blocks cover the output array: row `i 1` of batch element `i 0` belongs to point `(i 0, i 1 / 256)`. -/
theorem cover (i : S8x4096x16.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 16 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 16 ≤ (i 2).val ∧ (i 2).val < win0_3.index t (2 : Fin 3) * 16 + 16; omega

/-- The output array after the last point. -/
theorem final (c : Dev nD) : (dats m 0 c).arrAt 3 cfg0.N = whole m c :=
  (dats m 0 c).arrAt_eq_of_cover 3 (whole m c) (fun t _ => flushed_eq m c t) (cover)

end Cert.KernelIdeal.Blocks

end
-- ==== Proof.KernelRun.lean ====
/-
  The kernel program's run, with both results named.

  After the region the host reshapes the output array [8, 4096, 16] to [8, 64, 64, 16] and broadcasts the grid over the
  eight batch elements. So the second result is that reshape of `whole` (the output array after the last grid point), and
  the first is the grid as launched, placed as [1, 64, 64, 2] and broadcast to [8, 64, 64, 2]; the arguments end unchanged.
-/
import proofs.«151437_j21105469292680_2_alg».proof.Proof.Gen.KernelIdeal.Frame
import proofs.«151437_j21105469292680_2_alg».proof.Proof.Blocks
import Idealize.ShloMosaic.Lib.StableHlo.Run

noncomputable section

namespace Cert.KernelIdeal.Run

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The reshaped features after the lines that follow the region. -/
theorem tail_features (c : Dev nD) :
    Pipeline.afterTail₀ cfgs (dats m) 0 (V0 m) [hostOps1] c main_v12
      = shapeCast S8x64x64x16 (Cert.KernelIdeal.Blocks.whole m c) shapeCasts_S8x4096x16_S8x64x64x16 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = Cert.KernelIdeal.Blocks.whole m c :=
    (Pipeline.withArrays_arr spec0 launch0.win.arr_inj c _ _ 3).trans (Cert.KernelIdeal.Blocks.final m c)
  rw [e]
  rfl

/-- The broadcast grid after the lines that follow the region. -/
theorem tail_grid (c : Dev nD) :
    Pipeline.afterTail₀ cfgs (dats m) 0 (V0 m) [hostOps1] c main_v14
      = broadcastInDim S8x64x64x2 ![0, 1, 2, 3] bcast_S1x64x64x2_S8x64x64x2_0_1_2_3
          (broadcastInDim S1x64x64x2 ![1, 2, 3] bcast_S64x64x2_S1x64x64x2_1_2_3 (m ((c : Thread nD τ).loc main_arg3))) := by
  unfold Pipeline.afterTail₀
  show StableHlo.after hostOps1 _ (Proc.devRef .tc main_v14) = _
  after_results
  rw [Pipeline.withArrays_of_ne _ c (V0 m c) _ main_arg3 (by exact (by decide : ∀ w, Pipeline.arrRef spec0 w ≠ main_arg3))]
  rw [show V0 m c (Proc.devRef .tc main_arg3) = m ((c : Thread nD τ).loc main_arg3) from V_main_arg3 m c]

/-- Every weakly fair execution of the kernel program ends with the broadcast grid in its first result, the reshaped
    `whole` in its second, and the arguments as launched. -/
theorem run : θ_run defs (onTc (τ := τ) (main (F := Ideal))) ⟨m, fun _ => 0, ρ⟩ fun r => ∀ c : Dev nD,
      r.2.mem ((c.tc : Thread nD τ).loc main_v14)
          = broadcastInDim S8x64x64x2 ![0, 1, 2, 3] bcast_S1x64x64x2_S8x64x64x2_0_1_2_3
              (broadcastInDim S1x64x64x2 ![1, 2, 3] bcast_S64x64x2_S1x64x64x2_1_2_3 (m ((c.tc : Thread nD τ).loc main_arg3)))
      ∧ r.2.mem ((c.tc : Thread nD τ).loc main_v12)
          = shapeCast S8x64x64x16 (Cert.KernelIdeal.Blocks.whole m c) shapeCasts_S8x4096x16_S8x64x64x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (tail_grid m c),
      ((h c).2 main_v12 (Pipeline.mem_restRefs_of main_v12 (by decide) (by decide))).trans (tail_features m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.LibTrailing.lean ====
/-
  The host's keepdims forms that put a vector on the LAST axis of a rank-3 array, read at an index given by coordinates,
  for any extents a × b × c: a `[c]` vector placed as `[1, 1, c]` (broadcast dimensions `[2]`), and a `[1, 1, c]` array
  broadcast to `[a, b, c]` (broadcast dimensions `[0, 1, 2]`). Together they read "divide by a per-coordinate scale"
  expressions such as `x / s[None, None, :]` entry by entry.
-/
import Idealize.ShloMosaic.Lib.ValueIdx
import Idealize.ShloMosaic.Lib.Pipeline.Value

noncomputable section

namespace Cert.LibTrailing

open Idealize.ShloMosaic Idealize.ShloMosaic.ValueIdx

variable {α : Type} {a b c : ℕ}

/-- A `[c]` vector placed as `[1, 1, c]` reads, at `(u, v, k)`, the vector at `k`. -/
theorem broadcastInDim_c_11c_apply (x : (⟨1, ![c]⟩ : Shape).Idx → α)
    (h : (⟨1, ![c]⟩ : Shape).BroadcastsInDim ⟨3, ![1, 1, c]⟩ ![2]) (u v : Fin 1) (k : Fin c) :
    broadcastInDim ⟨3, ![1, 1, c]⟩ ![2] h x (ix3 u v k) = x (ix1 k) := by
  refine broadcastInDim_apply _ h x (ix3 u v k) (ix1 k) fun ax => ?_
  match ax with
  | ⟨0, _⟩ =>
    show k.val = if c = 1 then 0 else k.val
    split
    · have := k.isLt; omega
    · rfl

/-- A `[1, 1, c]` array broadcast to `[a, b, c]` reads, at `(p, q, k)`, the operand at `(0, 0, k)`. -/
theorem broadcastInDim_11c_abc_apply (v : (⟨3, ![1, 1, c]⟩ : Shape).Idx → α)
    (h : (⟨3, ![1, 1, c]⟩ : Shape).BroadcastsInDim ⟨3, ![a, b, c]⟩ ![0, 1, 2]) (p : Fin a) (q : Fin b) (k : Fin c) :
    broadcastInDim ⟨3, ![a, b, c]⟩ ![0, 1, 2] h v (ix3 p q k) = v (ix3 (0 : Fin 1) (0 : Fin 1) k) := by
  refine broadcastInDim_apply _ h v (ix3 p q k) (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Cert.LibTrailing

end
-- ==== Proof.Entry.lean ====
/-
  What the kernel's region finds in its arrays, entry by entry, on the extended reals.

  Before the region the host computes the lengthscales l = 1e-5 + softplus(p) (two of them), divides the flattened grid
  (4096 points of two coordinates) by them coordinate by coordinate, divides the input points by them and transposes the
  last two axes. So the first window's array holds gf(m,k) / l(k) at (m,k), the second window's array holds
  x(b,n,k) / l(k) at (b,k,n), and the third window's array is the features as launched.
-/
import proofs.«151437_j21105469292680_2_alg».proof.Proof.Gen.KernelIdeal.Frame
import proofs.«151437_j21105469292680_2_alg».proof.Proof.LibRowMax
import proofs.«151437_j21105469292680_2_alg».proof.Proof.LibTrailing
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Idealize.ShloMosaic Idealize.ShloMosaic.TcCoe Idealize.ShloMosaic.ValueIdx Idealize.SL.Sem Cert.KernelIdeal Cert.KernelIdeal.Gen

/-- The lengthscales, `1e-5 + softplus p`, as the host spells them: softplus is `max p 0 + log1p (exp (-|p - 0|))`,
    guarded by a test that never fires on the extended reals. -/
def lengthscale (p : FVec Ideal S2 .f32) : FVec Ideal S2 .f32 :=
  addf (broadcastInDim S2 ![] bcast_S_S2 (constant (F := Ideal) S_ .f32 0x3727C5AC#32))
    (select
      (cmpf .une (subf p (broadcastInDim S2 ![] bcast_S_S2 (constant (F := Ideal) S_ .f32 0x00000000#32)))
        (subf p (broadcastInDim S2 ![] bcast_S_S2 (constant (F := Ideal) S_ .f32 0x00000000#32))))
      (addf p (broadcastInDim S2 ![] bcast_S_S2 (constant (F := Ideal) S_ .f32 0x00000000#32)))
      (addf (maximumf p (broadcastInDim S2 ![] bcast_S_S2 (constant (F := Ideal) S_ .f32 0x00000000#32)))
        (Host.log1p (F := Ideal) (Host.exp (F := Ideal) (Host.negf (F := Ideal) (Host.absf (F := Ideal)
          (subf p (broadcastInDim S2 ![] bcast_S_S2 (constant (F := Ideal) S_ .f32 0x00000000#32)))))))))

variable (m : (ℓ : Loc nD τ sig) → Buf (Elt Ideal) ℓ)

/-- The first window's array: the flattened grid divided by the lengthscales broadcast down the rows. -/
theorem grid_scaled (c : Dev nD) :
    (V m c main_v6 : S4096x2.Idx → EReal)
      = Host.divf (F := Ideal) (shapeCast S4096x2 (m ((c : Thread nD τ).loc main_arg3)) shapeCasts_S64x64x2_S4096x2)
          (broadcastInDim S4096x2 ![0, 1] bcast_S1x2_S4096x2_0_1
            (broadcastInDim S1x2 ![1] bcast_S2_S1x2_1 (lengthscale (m ((c : Thread nD τ).loc main_arg2))))) := by
  dsimp only [V, V0]
  simp only [hostOps0, hostOps0_1, List.flatten_cons, List.flatten_nil, List.append_nil, List.cons_append, List.nil_append]
  after_results_simp <;> rfl

/-- The second window's array: the input points divided by the lengthscales, last two axes exchanged. -/
theorem points_scaled (c : Dev nD) :
    (V m c main_v10 : S8x2x4096.Idx → EReal)
      = transpose S8x2x4096 [0, 2, 1]
          (Host.divf (F := Ideal) (m ((c : Thread nD τ).loc main_arg0))
            (broadcastInDim S8x4096x2 ![0, 1, 2] bcast_S1x1x2_S8x4096x2_0_1_2
              (broadcastInDim S1x1x2 ![2] bcast_S2_S1x1x2_2 (lengthscale (m ((c : Thread nD τ).loc main_arg2))))))
          transposes_S8x4096x2_S8x2x4096_0_2_1 := by
  dsimp only [V, V0]
  simp only [hostOps0, hostOps0_1, List.flatten_cons, List.flatten_nil, List.append_nil, List.cons_append, List.nil_append]
  after_results_simp <;> rfl

/-- The first window's array at row `p`, coordinate `k`: that grid point's coordinate divided by its lengthscale. -/
theorem grid_scaled_apply (c : Dev nD) (p : Fin 4096) (k : Fin 2) :
    (V m c main_v6 : S4096x2.Idx → EReal) (ix2 p k)
      = Ideal.div (shapeCast S4096x2 (m ((c : Thread nD τ).loc main_arg3)) shapeCasts_S64x64x2_S4096x2 (ix2 p k))
          (lengthscale (m ((c : Thread nD τ).loc main_arg2)) (ix1 k)) := by
  rw [grid_scaled]
  show Ideal.div _ _ = _
  refine congrArg (Ideal.div _) ?_
  exact (Cert.LibRowMax.broadcastInDim_1b_ab_apply _ bcast_S1x2_S4096x2_0_1 p k).trans
    (Cert.LibRowMax.broadcastInDim_b_1b_apply _ bcast_S2_S1x2_1 (0 : Fin 1) k)

/-- The second window's array at batch `b`, coordinate `k`, point `n`: that point's coordinate divided by its lengthscale. -/
theorem points_scaled_apply (c : Dev nD) (b : Fin 8) (k : Fin 2) (n : Fin 4096) :
    (V m c main_v10 : S8x2x4096.Idx → EReal) (ix3 b k n)
      = Ideal.div ((m ((c : Thread nD τ).loc main_arg0) : S8x4096x2.Idx → EReal) (ix3 b n k))
          (lengthscale (m ((c : Thread nD τ).loc main_arg2)) (ix1 k)) := by
  rw [points_scaled]
  refine (transpose_ix3_021_apply _ transposes_S8x4096x2_S8x2x4096_0_2_1 b k n).trans ?_
  show Ideal.div _ _ = _
  refine congrArg (Ideal.div _) ?_
  exact (Cert.LibTrailing.broadcastInDim_11c_abc_apply _ bcast_S1x1x2_S8x4096x2_0_1_2 b n k).trans
    (Cert.LibTrailing.broadcastInDim_c_11c_apply _ bcast_S2_S1x1x2_2 (0 : Fin 1) (0 : Fin 1) k)

end Cert.KernelIdeal.Entry

end
-- ==== Proof.RefValue.lean ====
/-
  The reference's product stage is `smoothed`: at batch element b, grid point p, feature d, the host's contraction over the
  4096 input points of exp((-1/2) * sum over the two coordinates of ((grid - point) / lengthscale)^2) with the features,
  the grid point broadcast over the input points and the input point over the grid points.
-/
import proofs.«151437_j21105469292680_2_alg».proof.Proof.Gen.ReferenceIdeal.Read
import proofs.«151437_j21105469292680_2_alg».proof.Proof.Spec

noncomputable section

namespace Cert.ReferenceIdeal.RefValue

open Idealize.ShloMosaic Idealize.ShloMosaic.ValueIdx Cert.ReferenceIdeal Cert.ReferenceIdeal.Read

/-- The product stage at `(b, p, d)`. -/
theorem product_apply (x0 : (⟨S8x4096x2, .f32⟩ : BufTy).Contents (Elt Ideal)) (x1 : (⟨S8x4096x16, .f32⟩ : BufTy).Contents (Elt Ideal))
    (x2 : (⟨S2, .f32⟩ : BufTy).Contents (Elt Ideal)) (x3 : (⟨S64x64x2, .f32⟩ : BufTy).Contents (Elt Ideal))
    (b : Fin 8) (p : Fin 4096) (d : Fin 16) :
    val_main_v17 (F := Ideal) x0 x1 x2 x3 (ix3 b p d)
      = Cert.SetConv.smoothed (val_main_v2 (F := Ideal) x2) x0 x1 (val_main_v3 (F := Ideal) x3) b p d := by
  rw [val_main_v17_apply]
  unfold Cert.SetConv.smoothed
  refine Finset.sum_congr rfl fun n _ => ?_
  have er : ridx_main_v17 (ix3 b p d) n = ix3 b n d :=
    funext fun a => Fin.ext (by match a with | ⟨0, _⟩ => rfl | ⟨1, _⟩ => rfl | ⟨2, _⟩ => rfl)
  rw [er]
  refine congrArg (· * x1 (ix3 b n d)) ?_
  rw [val_main_v16_apply, val_main_v15_apply, val_main_v14_apply, val_main_cst_1_apply, val_main_v13_apply,
    val_main_cst_0_apply]
  simp only [Ideal.hostUnary_exp_def, Ideal.mulf_def, Ideal.ofBits_def]
  refine congrArg (fun s => Ideal.exp (Ideal.ofBits .f32 0xBF000000#32 * (Ideal.ofBits .f32 0x00000000#32 + s)))
    (Finset.sum_congr rfl fun k _ => ?_)
  have e1 : idx_main_v4 (idx_main_v6 (idx_main_v13 (lidx_main_v17 (ix3 b p d) n) k)) = ix2 p k :=
    funext fun a => Fin.ext (by match a with | ⟨0, _⟩ => rfl | ⟨1, _⟩ => rfl)
  have e2 : idx_main_v5 (idx_main_v7 (idx_main_v13 (lidx_main_v17 (ix3 b p d) n) k)) = ix3 b n k :=
    funext fun a => Fin.ext (by match a with | ⟨0, _⟩ => rfl | ⟨1, _⟩ => rfl | ⟨2, _⟩ => rfl)
  have e3 : idx_main_v9 (idx_main_v10 (idx_main_v13 (lidx_main_v17 (ix3 b p d) n) k)) = ix1 k :=
    funext fun a => Fin.ext (by match a with | ⟨0, _⟩ => rfl)
  simp only [val_main_v12_apply, val_main_v11_apply, val_main_v8_apply, val_main_v6_apply, val_main_v4_apply,
    val_main_v7_apply, val_main_v5_apply, val_main_v10_apply, val_main_v9_apply, e1, e2, e3,
    Ideal.mulf_def, Ideal.hostDivf_def, Ideal.subf_def]

end Cert.ReferenceIdeal.RefValue

end
-- ==== Proof.Bridge.lean ====
/-
  The two programs compute one function.

  The output array the kernel's region leaves is `tiled` of the three arrays the region finds; those arrays are the grid
  and the points divided by the lengthscales (and the features as launched), so on real grid and point coordinates it is
  `smoothed` of the arguments, which is what the reference's product stage is. The lengthscales are one term in both
  programs: 1e-5 + softplus of the third argument.
-/
import proofs.«151437_j21105469292680_2_alg».proof.Proof.Entry
import proofs.«151437_j21105469292680_2_alg».proof.Proof.Blocks
import proofs.«151437_j21105469292680_2_alg».proof.Proof.Spec
import proofs.«151437_j21105469292680_2_alg».proof.Proof.RefValue

noncomputable section

namespace Cert.Bridge

open Idealize.ShloMosaic Idealize.ShloMosaic.TcCoe Idealize.ShloMosaic.ValueIdx Idealize.SL.Sem

/-- Both programs spell the lengthscales alike. -/
theorem lengthscale_eq (p : FVec Ideal Cert.KernelIdeal.S2 .f32) :
    Cert.ReferenceIdeal.Read.val_main_v2 (F := Ideal) p = Cert.KernelIdeal.Entry.lengthscale p := rfl

/-- A reshape of an array of reals holds reals. -/
theorem reals_shapeCast {s u : Shape} (x : s.Idx → EReal) (h : s.ShapeCasts u) (hx : ∀ i, ∃ r : ℝ, x i = r) (j : u.Idx) :
    ∃ r : ℝ, shapeCast u x h j = r := by
  unfold shapeCast
  exact hx _

open Cert.KernelIdeal Cert.KernelIdeal.Gen in
/-- On real grid and point coordinates the kernel's output array is the reference's product stage of the arguments. -/
theorem whole_eq (m : (ℓ : Loc nD τ sig) → Buf (Elt Ideal) ℓ) (c : Dev nD)
    (hx : ∀ i, ∃ r : ℝ, (m ((c : Thread nD τ).loc main_arg0) : S8x4096x2.Idx → EReal) i = (r : EReal))
    (hg : ∀ i, ∃ r : ℝ, (m ((c : Thread nD τ).loc main_arg3) : S64x64x2.Idx → EReal) i = (r : EReal)) :
    Cert.KernelIdeal.Blocks.whole m c
      = Cert.ReferenceIdeal.Read.val_main_v17 (F := Ideal) (m ((c : Thread nD τ).loc main_arg0))
          (m ((c : Thread nD τ).loc main_arg1)) (m ((c : Thread nD τ).loc main_arg2)) (m ((c : Thread nD τ).loc main_arg3)) := by
  funext i
  obtain ⟨b, p, d, rfl⟩ : ∃ (b : Fin 8) (p : Fin 4096) (d : Fin 16), i = ix3 b p d := ⟨i 0, i 1, i 2, eq_ix3 i⟩
  rw [Cert.ReferenceIdeal.RefValue.product_apply, lengthscale_eq]
  show Cert.SetConv.tiled (V m c main_v6) (V m c main_v10) (V m c main_arg1) b p d = _
  rw [V_main_arg1]
  exact Cert.SetConv.tiled_eq_smoothed _ _ _ _ _ _ hx
    (reals_shapeCast _ shapeCasts_S64x64x2_S4096x2 hg)
    (fun p k => Cert.KernelIdeal.Entry.grid_scaled_apply m c p k)
    (fun b k n => Cert.KernelIdeal.Entry.points_scaled_apply m c b k n) b p d

end Cert.Bridge

end
-- ==== Proof.Finite.lean ====
/-
  The precondition read back: where it holds, every entry of the input points and of the grid is a real number.

  The predicate is the conjunction of four tests "every |entry| is below +infinity", one per argument. An extended real
  whose absolute value max(x, -x) is below the top element is neither infinity, so it is a real.
-/
import proofs.«151437_j21105469292680_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

instance : Subsingleton S_.Idx := ⟨fun a b => funext fun d => d.elim0⟩

/-- The word `0x7F800000` denotes the top element. -/
theorem inf_word : Ideal.ofBits .f32 0x7F800000#32 = ⊤ := by simp [Ideal.ofBits, Ideal.ieee]

/-- An extended real whose absolute value is below `+∞` is a real. -/
theorem real_of_abs_lt (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

variable [Cert.Pre_finite_inputs.Facts]

/-- Under the precondition the input points (first argument) and the grid (fourth argument) hold reals. -/
theorem reals_of_pre (a0 : FVec Ideal S8x4096x2 .f32) (a1 : FVec Ideal S8x4096x16 .f32) (a2 : FVec Ideal S2 .f32)
    (a3 : FVec Ideal S64x64x2 .f32) (h : fn (F := Ideal) a0 a1 a2 a3 = fun _ => 1#1) :
    (∀ i, ∃ r : ℝ, a0 i = r) ∧ (∀ i, ∃ r : ℝ, a3 i = r) := by
  have h1 : fn (F := Ideal) a0 a1 a2 a3 ix0 = 1#1 := congrFun h ix0
  dsimp only [fn, fn_part1] at h1
  obtain ⟨h123, h4⟩ := IntOp.andi_eq_one.mp h1
  obtain ⟨h12, -⟩ := IntOp.andi_eq_one.mp h123
  obtain ⟨hx, -⟩ := IntOp.andi_eq_one.mp h12
  exact ⟨fun i => real_of_abs_lt (a0 i) (Host.reduce_andi_all _ _ _ _ ix0 hx i),
    fun i => real_of_abs_lt (a3 i) (Host.reduce_andi_all _ _ _ _ ix0 h4 i)⟩

end Cert.Pre_finite_inputs.Finite

end
-- ==== Proof.lean ====
/-
  Smoothing scattered features onto a fixed grid with Gaussian weights: a tiled kernel against its plain reference, on the
  extended reals.

  Both programs return the grid broadcast over the eight batch elements, and, for batch element b, grid point p and
  feature d, the sum over the 4096 input points n of w(b,p,n) * z(b,n,d), reshaped to [8, 64, 64, 16]. The reference takes
  w = exp((-1/2) * sum_k ((g(p,k) - x(b,n,k)) / l(k))^2) with l = 1e-5 + softplus(lengthscale parameter). The kernel first
  scales grid and points by l on the host, then per tile of 256 grid points expands the square:
  w = exp(gs.xs - |gs|^2/2 - |xs|^2/2), the cross term and the final weighted sum as matrix products.

  The proof: the tile's stored values entry by entry (Tile), the arrays the region finds (Entry), the blocks assembled into
  the whole output array (Blocks) and the run with the host lines after the region (KernelRun); the reference's product
  stage as one function (RefValue); the expansion of the square on real coordinates for ANY extended-real lengthscales,
  including the degenerate ones (RbfLaw, Spec); the precondition giving real coordinates (Finite); the two sides joined
  (Bridge). The kernel's idealization rewrote nothing, so that claim is trivial.
-/
import proofs.«151437_j21105469292680_2_alg».proof.Defs
import proofs.«151437_j21105469292680_2_alg».proof.Proof.Gen.Kernel
import proofs.«151437_j21105469292680_2_alg».proof.Proof.Gen.Kernel.Frame
import proofs.«151437_j21105469292680_2_alg».proof.Proof.Gen.KernelIdeal
import proofs.«151437_j21105469292680_2_alg».proof.Proof.Gen.KernelIdeal.Frame
import proofs.«151437_j21105469292680_2_alg».proof.Proof.Gen.ReferenceIdeal
import proofs.«151437_j21105469292680_2_alg».proof.Proof.Gen.ReferenceIdeal.Run
import proofs.«151437_j21105469292680_2_alg».proof.Proof.Gen.ReferenceIdeal.Read
import proofs.«151437_j21105469292680_2_alg».proof.Proof.Gen.Pre_finite_inputs
import proofs.«151437_j21105469292680_2_alg».proof.Proof.KernelRun
import proofs.«151437_j21105469292680_2_alg».proof.Proof.Bridge
import proofs.«151437_j21105469292680_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the broadcast grid and with the reshape of one and the same array: the kernel's output array is the
    reference's product stage, the precondition making the grid's and the points' coordinates real. -/
theorem algebraic : Cert.algebraic_KernelIdeal_ReferenceIdeal := by
  intro m ρ m' ρ' hpre hagree
  refine ⟨_, _, Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [(hagree c).2.2.2]
  · obtain ⟨hx, hg⟩ := Cert.Pre_finite_inputs.Finite.reals_of_pre _ _ _ _ (hpre c)
    refine (h c).2.1.trans ?_
    rw [Cert.ReferenceIdeal.Read.val_main_v18_eq, (hagree c).1, (hagree c).2.1, (hagree c).2.2.1, (hagree c).2.2.2]
    unfold Cert.ReferenceIdeal.Read.val_main_v18
    rw [← Cert.Bridge.whole_eq m c hx hg]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
